-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S64x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x64 .f32) (main_arg3 : FVec F S128x128 .f32) (main_arg4 : FVec F S128 .f32) (main_arg5 : FVec F S64x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S1x128 : Shape := ⟨2, ![1, 128]⟩
abbrev S2000x128 : Shape := ⟨2, ![2000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S5000x64 : Shape := ⟨2, ![5000, 64]⟩

abbrev nBuf : Space → Nat
  | .hbm => 45
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S50000x128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S1x128, .f32⟩
  | .hbm, ⟨44, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S64x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  broadcasts_S1x128_S5000x128 : S1x128.Broadcasts S5000x128
  shapeCasts_S128x128_S128x128 : S128x128.ShapeCasts S128x128
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S800000x64.size a
  hwx1_1 : ∀ i : grid1.Coords, EltTy.bits .f32 = 32 ∨ (Rect.block (s := S800000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S800000x128.size a
  hwx1_9 : ∀ i : grid1.Coords, EltTy.bits .f32 = 32 ∨ (Rect.block (s := S800000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S1x128 : Shape := ⟨2, ![1, 128]⟩
abbrev S800000x128 : Shape := ⟨2, ![800000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x256, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NamedRun.lean ====
/-
  The idealized program's run, with its result named. The program is three gridded kernels among stretches of host
  operations; every weakly fair execution terminates without a fault, and in its final state each buffer holds what the
  fold through the segments leaves there: a stretch of host operations applies them in order, a kernel region replaces
  each of its arrays by what its write-backs leave. Read at the result buffer this is the third kernel's output array;
  read at an argument it is the argument as launched.
-/
import proofs.«180056_j19078244729007_1_alg».proof.Proof.Gen.KernelIdeal.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer holds
    the fold's contents at it, and every argument is as launched. -/
theorem run_named : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Layer

end
-- ==== Proof.Spec.lean ====
/-
  One round of message passing on a graph, as functions of coordinates over the extended reals.

  Three dense stages make the layer. An AFFINE stage sends a row `x p` to `(∑ κ, x p κ · w κ q) + β q`. A
  two-input PERCEPTRON meets a stacked 256-row weight matrix: rows 0..127 multiply the first input, rows 128..255
  the second, the two partial sums and the bias are added, the result is clipped below at zero, and an affine stage
  follows. Whether the two inputs are first joined into one 256-long row and multiplied once, or multiplied
  separately and added, is the same number: a sum over 256 positions is the sum over its lower half plus the sum
  over its upper half, in any commutative additive monoid — no finiteness is involved, so infinite entries are fine.

  The layer: node states `h = affine(node_feats)`, edge states `e = affine(edge_feats)`, messages
  `m = perceptron(h gathered at each edge's source, e)`, their sum at each edge's target, and the update
  `perceptron(node_feats, aggregated messages)`. Gathering and summing-at-targets enter as two whole-array
  functions `G` and `S`: nothing here depends on what they are.
-/
import Idealize.ShloMosaic.PureOps.Ideal
import Idealize.ShloMosaic.Lib.ValueIdx

noncomputable section

namespace Cert.GraphLayer

open Idealize.ShloMosaic Idealize.ShloMosaic.ValueIdx
open scoped BigOperators

/-- A rank-2 array of extended reals of extents `a × b`. -/
abbrev Arr2 (a b : ℕ) := (⟨2, ![a, b]⟩ : Shape).Idx → EReal
/-- A vector of extended reals of extent `a`. -/
abbrev Arr1 (a : ℕ) := (⟨1, ![a]⟩ : Shape).Idx → EReal

/-- A rank-2 array read at coordinates. -/
def co2 {a b : ℕ} (A : Arr2 a b) : Fin a → Fin b → EReal := fun p q => A (ix2 p q)
/-- A vector read at a coordinate. -/
def co1 {a : ℕ} (A : Arr1 a) : Fin a → EReal := fun q => A (ix1 q)
/-- The one row of a `1 × c` array. -/
def row {c : ℕ} (A : Arr2 1 c) : Fin c → EReal := fun q => A (ix2 0 q)
/-- The rank-2 array with given entries. -/
def ar2 {a b : ℕ} (f : Fin a → Fin b → EReal) : Arr2 a b := fun j => f (j 0) (j 1)

theorem ar2_ix2 {a b : ℕ} (f : Fin a → Fin b → EReal) (p : Fin a) (q : Fin b) : ar2 f (ix2 p q) = f p q := rfl
theorem co2_ar2 {a b : ℕ} (f : Fin a → Fin b → EReal) : co2 (ar2 f) = f := rfl
theorem ar2_co2 {a b : ℕ} (A : Arr2 a b) : ar2 (co2 A) = A := funext fun j => congrArg A (eq_ix2 j).symm
/-- Two rank-2 arrays agree when they agree at all coordinates. -/
theorem arr2_ext {a b : ℕ} {A B : Arr2 a b} (h : ∀ p q, A (ix2 p q) = B (ix2 p q)) : A = B :=
  funext fun j => by rw [eq_ix2 j]; exact h _ _

/-- Position `ι` of the lower half of 256. -/
def lo (ι : Fin 128) : Fin 256 := ⟨ι.val, by omega⟩
/-- Position `ι` of the upper half of 256. -/
def hi (ι : Fin 128) : Fin 256 := ⟨128 + ι.val, by omega⟩

/-- A sum over 256 positions is the sum over the lower half plus the sum over the upper half. -/
theorem sum_halves {M : Type*} [AddCommMonoid M] (f : Fin 256 → M) :
    ∑ k, f k = (∑ ι, f (lo ι)) + ∑ ι, f (hi ι) :=
  Fin.sum_univ_add (a := 128) (b := 128) f

/-- The affine stage. -/
def lin {n k c : ℕ} (x : Fin n → Fin k → EReal) (w : Fin k → Fin c → EReal) (β : Fin c → EReal)
    (p : Fin n) (q : Fin c) : EReal :=
  (∑ κ : Fin k, x p κ * w κ q) + β q

/-- The perceptron's hidden row over two separate weight matrices, one per input. -/
def hid2 {n : ℕ} (x y : Fin n → Fin 128 → EReal) (wa wb : Fin 128 → Fin 128 → EReal) (β : Fin 128 → EReal)
    (p : Fin n) (κ : Fin 128) : EReal :=
  max (((∑ ι, x p ι * wa ι κ) + ∑ ι, y p ι * wb ι κ) + β κ) 0

/-- The perceptron's hidden row over the stacked matrix: its lower half meets `x`, its upper half `y`. -/
def hid {n : ℕ} (x y : Fin n → Fin 128 → EReal) (w : Fin 256 → Fin 128 → EReal) (β : Fin 128 → EReal) :
    Fin n → Fin 128 → EReal :=
  hid2 x y (fun ι => w (lo ι)) (fun ι => w (hi ι)) β

/-- The two inputs' rows joined into one row of 256. -/
def join {n : ℕ} (x y : Fin n → Fin 128 → EReal) (p : Fin n) (k : Fin 256) : EReal :=
  if h : k.val < 128 then x p ⟨k.val, h⟩ else y p ⟨k.val - 128, by omega⟩

theorem join_lo {n : ℕ} (x y : Fin n → Fin 128 → EReal) (p : Fin n) (ι : Fin 128) : join x y p (lo ι) = x p ι := by
  unfold join lo; rw [dif_pos ι.isLt]
theorem join_hi {n : ℕ} (x y : Fin n → Fin 128 → EReal) (p : Fin n) (ι : Fin 128) : join x y p (hi ι) = y p ι := by
  unfold join hi
  rw [dif_neg (by simp)]
  exact congrArg (y p) (Fin.ext (by simp))

/-- The hidden row computed from the joined row is the hidden row computed from the two inputs separately. -/
theorem hid_of_join {n : ℕ} (x y : Fin n → Fin 128 → EReal) (w : Fin 256 → Fin 128 → EReal) (β : Fin 128 → EReal)
    (p : Fin n) (κ : Fin 128) :
    max ((∑ k, join x y p k * w k κ) + β κ) 0 = hid x y w β p κ := by
  unfold hid hid2
  rw [sum_halves]
  simp only [join_lo, join_hi]

/-- The perceptron over two separate first-layer matrices: the hidden row, then an affine stage. -/
def mlp2 {n : ℕ} (x y : Fin n → Fin 128 → EReal) (wa wb : Fin 128 → Fin 128 → EReal) (β₁ : Fin 128 → EReal)
    (w₂ : Fin 128 → Fin 128 → EReal) (β₂ : Fin 128 → EReal) : Fin n → Fin 128 → EReal :=
  lin (hid2 x y wa wb β₁) w₂ β₂

/-- The perceptron over the stacked first-layer matrix. -/
def mlp {n : ℕ} (x y : Fin n → Fin 128 → EReal) (w₁ : Fin 256 → Fin 128 → EReal) (β₁ : Fin 128 → EReal)
    (w₂ : Fin 128 → Fin 128 → EReal) (β₂ : Fin 128 → EReal) : Fin n → Fin 128 → EReal :=
  mlp2 x y (fun ι => w₁ (lo ι)) (fun ι => w₁ (hi ι)) β₁ w₂ β₂

/-- The whole layer, over a gathering function `G` (node states to one row per edge) and a summing function `S`
    (messages to one row per node). -/
def layer (G : Arr2 50000 128 → Arr2 800000 128) (S : Arr2 800000 128 → Arr2 50000 128)
    (nf : Fin 50000 → Fin 128 → EReal) (ef : Fin 800000 → Fin 64 → EReal)
    (nW : Fin 128 → Fin 128 → EReal) (nb : Fin 128 → EReal)
    (eW : Fin 64 → Fin 128 → EReal) (eb : Fin 128 → EReal)
    (W₁ : Fin 256 → Fin 128 → EReal) (b₁ : Fin 128 → EReal) (W₂ : Fin 128 → Fin 128 → EReal) (b₂ : Fin 128 → EReal)
    (U₁ : Fin 256 → Fin 128 → EReal) (u₁ : Fin 128 → EReal) (U₂ : Fin 128 → Fin 128 → EReal) (u₂ : Fin 128 → EReal) :
    Fin 50000 → Fin 128 → EReal :=
  mlp nf (co2 (S (ar2 (mlp (co2 (G (ar2 (lin nf nW nb)))) (lin ef eW eb) W₁ b₁ W₂ b₂)))) U₁ u₁ U₂ u₂

end Cert.GraphLayer

end
-- ==== Proof.KernelLayer.lean ====
/-
  The idealized program's result as ONE function of its arguments.

  The run folds the buffer contents through six segments: host operations, the node kernel, host operations (the
  gather among them), the message kernel, host operations (the sum at the targets among them), the update kernel. Each
  kernel region replaces its output array by one whole-array function of the arrays it found at entry (the three
  hypotheses below); a stretch of host operations writes its results and leaves every other buffer alone; no segment
  writes an argument. Walking each buffer a kernel reads back through the fold to the launch contents, the result is
  the layer of the specification at the arguments: the bias rows are the bias vectors laid as one row, the two halves
  of a stacked weight matrix are its rows 0..127 and 128..255.
-/
import proofs.«180056_j19078244729007_1_alg».proof.Proof.Gen.KernelIdeal.Frame
import proofs.«180056_j19078244729007_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Layer

open Idealize.ShloMosaic Idealize.ShloMosaic.TcCoe Idealize.SL.Sem Idealize.ShloMosaic.ValueIdx Idealize.ShloMosaic.StableHlo
open Cert.KernelIdeal Cert.KernelIdeal.Gen Cert.GraphLayer

/-! ## Layout facts at coordinates -/

/-- A bias vector laid as a one-row matrix: its one row is the vector. -/
theorem row_of_vector (b : Arr1 128) : row (shapeCast S1x128 b shapeCasts_S128_S1x128) = co1 b :=
  funext fun q => shapeCast_a_1a_apply b shapeCasts_S128_S1x128 0 q

/-- Rows 0..127 of a stacked 256-row matrix. -/
theorem lower_rows (w : Arr2 256 128) :
    co2 (extractStridedSlice S128x128 ![0, 0] w slices_S256x128_S128x128_0_0) = fun ι => co2 w (lo ι) :=
  funext fun ι => funext fun κ => extractStridedSlice_apply _ _ _ _ (ix2 (lo ι) κ) (fun a => by
    match a with
    | ⟨0, _⟩ => show ι.val = 0 + ι.val; omega
    | ⟨1, _⟩ => show κ.val = 0 + κ.val; omega)

/-- Rows 128..255 of a stacked 256-row matrix. -/
theorem upper_rows (w : Arr2 256 128) :
    co2 (extractStridedSlice S128x128 ![128, 0] w slices_S256x128_S128x128_128_0) = fun ι => co2 w (hi ι) :=
  funext fun ι => funext fun κ => extractStridedSlice_apply _ _ _ _ (ix2 (hi ι) κ) (fun a => by
    match a with
    | ⟨0, _⟩ => show 128 + ι.val = 128 + ι.val; rfl
    | ⟨1, _⟩ => show κ.val = 0 + κ.val; omega)

/-! ## The index arrays the gather and the sum at the targets read -/

/-- Each edge's source node: row 0 of the edge list, a negative entry counted from the end. -/
def srcIdx (x : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast S800000 (extractStridedSlice S1x800000 ![0, 0] x slices_S2x800000_S1x800000_0_0) shapeCasts_S1x800000_S800000)
        (broadcastInDim S800000 ![] bcast_S_S800000 (constantI S_ 32 0#32)))
      (addi (shapeCast S800000 (extractStridedSlice S1x800000 ![0, 0] x slices_S2x800000_S1x800000_0_0) shapeCasts_S1x800000_S800000)
        (broadcastInDim S800000 ![] bcast_S_S800000 (constantI S_ 32 50000#32)))
      (shapeCast S800000 (extractStridedSlice S1x800000 ![0, 0] x slices_S2x800000_S1x800000_0_0) shapeCasts_S1x800000_S800000))

/-- Each edge's target node: row 1 of the edge list. -/
def dstIdx (x : (⟨S2x800000, .i32⟩ : BufTy).Contents (Elt Ideal)) : (⟨S800000x1, .i32⟩ : BufTy).Contents (Elt Ideal) :=
  broadcastInDim S800000x1 ![0] bcast_S800000_S800000x1_0
    (shapeCast S800000 (extractStridedSlice S1x800000 ![1, 0] x slices_S2x800000_S1x800000_1_0) shapeCasts_S1x800000_S800000)

/-- The array of zeros the sum at the targets starts from. -/
def zeros : Arr2 50000 128 := broadcastInDim S50000x128 ![] bcast_S_S50000x128 (constant (F := Ideal) S_ .f32 0x00000000#32)

variable (m : (ℓ : Loc nD τ sig) → Buf (Elt Ideal) ℓ) (ρ : Dev nD → PrngReg) (c : Dev nD)

/-- A stretch of host operations leaves a buffer none of them writes as it found it. -/
macro "untouched_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## At the node kernel's entry -/

theorem V1_arg0 : V1 m ρ c main_arg0 = m ((c : Thread nD τ).loc main_arg0) := by
  show W1 m ρ c (Proc.devRef .tc main_arg0) = W0 m ρ c (Proc.devRef .tc main_arg0)
  untouched_by hostOps0
theorem V1_arg3 : V1 m ρ c main_arg3 = m ((c : Thread nD τ).loc main_arg3) := by
  show W1 m ρ c (Proc.devRef .tc main_arg3) = W0 m ρ c (Proc.devRef .tc main_arg3)
  untouched_by hostOps0
theorem V1_v0 : V1 m ρ c main_v0 = shapeCast S1x128 (m ((c : Thread nD τ).loc main_arg4)) shapeCasts_S128_S1x128 := by
  show StableHlo.after hostOps0 (W0 m ρ c) (Proc.devRef .tc main_v0) = _
  after_results
  rfl

/-! ## At the node kernel's exit -/

/-- The node kernel's output array, as a function of the arrays it found. -/
abbrev NodeFact : Prop := ∀ (V : (c : Dev nD) → (b : Ref sig .tc) → Buf (Elt Ideal) ((c : Thread nD τ).loc b)) (c : Dev nD),
  ((Gen.dat0 (F := Ideal) V c).arrAt 3 cfg0.N : Arr2 50000 128)
    = ar2 (lin (co2 (V c main_arg0)) (co2 (V c main_arg3)) (row (V c main_v0)))
/-- The message kernel's output array, as a function of the arrays it found. -/
abbrev MessageFact : Prop := ∀ (V : (c : Dev nD) → (b : Ref sig .tc) → Buf (Elt Ideal) ((c : Thread nD τ).loc b)) (c : Dev nD),
  ((Gen.dat1 (F := Ideal) V c).arrAt 9 cfg1.N : Arr2 800000 128)
    = ar2 (mlp2 (co2 (V c main_v12)) (lin (co2 (V c main_arg2)) (co2 (V c main_arg5)) (row (V c main_v15)))
        (co2 (V c main_v13)) (co2 (V c main_v14)) (row (V c main_v16)) (co2 (V c main_arg9)) (row (V c main_v17)))
/-- The update kernel's output array, as a function of the arrays it found. -/
abbrev UpdateFact : Prop := ∀ (V : (c : Dev nD) → (b : Ref sig .tc) → Buf (Elt Ideal) ((c : Thread nD τ).loc b)) (c : Dev nD),
  ((Gen.dat2 (F := Ideal) V c).arrAt 7 cfg2.N : Arr2 50000 128)
    = ar2 (mlp2 (co2 (V c main_arg0)) (co2 (V c main_v21)) (co2 (V c main_v22)) (co2 (V c main_v23))
        (row (V c main_v24)) (co2 (V c main_arg13)) (row (V c main_v25)))

theorem W2_arg1 : W2 m ρ c (Proc.devRef .tc main_arg1) = m ((c : Thread nD τ).loc main_arg1) :=
  (W2_of_ne m ρ c main_arg1 (by decide)).trans (by
    show W1 m ρ c (Proc.devRef .tc main_arg1) = W0 m ρ c (Proc.devRef .tc main_arg1)
    untouched_by hostOps0)
theorem W2_arg6 : W2 m ρ c (Proc.devRef .tc main_arg6) = m ((c : Thread nD τ).loc main_arg6) :=
  (W2_of_ne m ρ c main_arg6 (by decide)).trans (by
    show W1 m ρ c (Proc.devRef .tc main_arg6) = W0 m ρ c (Proc.devRef .tc main_arg6)
    untouched_by hostOps0)
theorem W2_arg7 : W2 m ρ c (Proc.devRef .tc main_arg7) = m ((c : Thread nD τ).loc main_arg7) :=
  (W2_of_ne m ρ c main_arg7 (by decide)).trans (by
    show W1 m ρ c (Proc.devRef .tc main_arg7) = W0 m ρ c (Proc.devRef .tc main_arg7)
    untouched_by hostOps0)
theorem W2_arg8 : W2 m ρ c (Proc.devRef .tc main_arg8) = m ((c : Thread nD τ).loc main_arg8) :=
  (W2_of_ne m ρ c main_arg8 (by decide)).trans (by
    show W1 m ρ c (Proc.devRef .tc main_arg8) = W0 m ρ c (Proc.devRef .tc main_arg8)
    untouched_by hostOps0)
theorem W2_arg10 : W2 m ρ c (Proc.devRef .tc main_arg10) = m ((c : Thread nD τ).loc main_arg10) :=
  (W2_of_ne m ρ c main_arg10 (by decide)).trans (by
    show W1 m ρ c (Proc.devRef .tc main_arg10) = W0 m ρ c (Proc.devRef .tc main_arg10)
    untouched_by hostOps0)

/-- The node states: the affine stage of the node features. -/
theorem W2_v1 (h0 : NodeFact) : W2 m ρ c (Proc.devRef .tc main_v1)
    = ar2 (lin (co2 (m ((c : Thread nD τ).loc main_arg0))) (co2 (m ((c : Thread nD τ).loc main_arg3))) (co1 (m ((c : Thread nD τ).loc main_arg4)))) := by
  refine (W2_arr m ρ c 3).trans ((h0 (V1 m ρ) c).trans ?_)
  rw [V1_arg0, V1_arg3, V1_v0, row_of_vector]

/-! ## At the message kernel's entry -/

theorem V3_arg2 : V3 m ρ c main_arg2 = m ((c : Thread nD τ).loc main_arg2) := by
  refine Eq.trans (?_ : W3 m ρ c (Proc.devRef .tc main_arg2) = W2 m ρ c (Proc.devRef .tc main_arg2)) ?_
  · untouched_by hostOps1
  refine (W2_of_ne m ρ c main_arg2 (by decide)).trans ?_
  show W1 m ρ c (Proc.devRef .tc main_arg2) = W0 m ρ c (Proc.devRef .tc main_arg2)
  untouched_by hostOps0
theorem V3_arg5 : V3 m ρ c main_arg5 = m ((c : Thread nD τ).loc main_arg5) := by
  refine Eq.trans (?_ : W3 m ρ c (Proc.devRef .tc main_arg5) = W2 m ρ c (Proc.devRef .tc main_arg5)) ?_
  · untouched_by hostOps1
  refine (W2_of_ne m ρ c main_arg5 (by decide)).trans ?_
  show W1 m ρ c (Proc.devRef .tc main_arg5) = W0 m ρ c (Proc.devRef .tc main_arg5)
  untouched_by hostOps0
theorem V3_arg9 : V3 m ρ c main_arg9 = m ((c : Thread nD τ).loc main_arg9) := by
  refine Eq.trans (?_ : W3 m ρ c (Proc.devRef .tc main_arg9) = W2 m ρ c (Proc.devRef .tc main_arg9)) ?_
  · untouched_by hostOps1
  refine (W2_of_ne m ρ c main_arg9 (by decide)).trans ?_
  show W1 m ρ c (Proc.devRef .tc main_arg9) = W0 m ρ c (Proc.devRef .tc main_arg9)
  untouched_by hostOps0

/-- The gathered node states: one row per edge, the row of its source node. -/
theorem V3_v12 (h0 : NodeFact) : V3 m ρ c main_v12
    = Host.gather (α := EReal) gather_S50000x128_S800000x1_S800000x128_1_0_n_n_0_1_1128
        (ar2 (lin (co2 (m ((c : Thread nD τ).loc main_arg0))) (co2 (m ((c : Thread nD τ).loc main_arg3))) (co1 (m ((c : Thread nD τ).loc main_arg4))))) (srcIdx (m ((c : Thread nD τ).loc main_arg1))) := by
  rw [← W2_v1 m ρ c h0, ← W2_arg1 m ρ c]
  show StableHlo.after hostOps1 (W2 m ρ c) (Proc.devRef .tc main_v12) = _
  after_results
  rfl
theorem V3_v13 : V3 m ρ c main_v13 = extractStridedSlice S128x128 ![0, 0] (m ((c : Thread nD τ).loc main_arg7)) slices_S256x128_S128x128_0_0 := by
  rw [← W2_arg7 m ρ c]
  show StableHlo.after hostOps1 (W2 m ρ c) (Proc.devRef .tc main_v13) = _
  after_results
  try rfl
theorem V3_v14 : V3 m ρ c main_v14 = extractStridedSlice S128x128 ![128, 0] (m ((c : Thread nD τ).loc main_arg7)) slices_S256x128_S128x128_128_0 := by
  rw [← W2_arg7 m ρ c]
  show StableHlo.after hostOps1 (W2 m ρ c) (Proc.devRef .tc main_v14) = _
  after_results
  try rfl
theorem V3_v15 : V3 m ρ c main_v15 = shapeCast S1x128 (m ((c : Thread nD τ).loc main_arg6)) shapeCasts_S128_S1x128 := by
  rw [← W2_arg6 m ρ c]
  show StableHlo.after hostOps1 (W2 m ρ c) (Proc.devRef .tc main_v15) = _
  after_results
  try rfl
theorem V3_v16 : V3 m ρ c main_v16 = shapeCast S1x128 (m ((c : Thread nD τ).loc main_arg8)) shapeCasts_S128_S1x128 := by
  rw [← W2_arg8 m ρ c]
  show StableHlo.after hostOps1 (W2 m ρ c) (Proc.devRef .tc main_v16) = _
  after_results
  try rfl
theorem V3_v17 : V3 m ρ c main_v17 = shapeCast S1x128 (m ((c : Thread nD τ).loc main_arg10)) shapeCasts_S128_S1x128 := by
  rw [← W2_arg10 m ρ c]
  show StableHlo.after hostOps1 (W2 m ρ c) (Proc.devRef .tc main_v17) = _
  after_results
  try rfl

/-! ## At the message kernel's exit -/

/-- The messages: the perceptron of the gathered node states and the edge states. -/
theorem W4_v18 (h0 : NodeFact) (h1 : MessageFact) : W4 m ρ c (Proc.devRef .tc main_v18)
    = ar2 (mlp (co2 (Host.gather (α := EReal) gather_S50000x128_S800000x1_S800000x128_1_0_n_n_0_1_1128
          (ar2 (lin (co2 (m ((c : Thread nD τ).loc main_arg0))) (co2 (m ((c : Thread nD τ).loc main_arg3))) (co1 (m ((c : Thread nD τ).loc main_arg4))))) (srcIdx (m ((c : Thread nD τ).loc main_arg1)))))
        (lin (co2 (m ((c : Thread nD τ).loc main_arg2))) (co2 (m ((c : Thread nD τ).loc main_arg5))) (co1 (m ((c : Thread nD τ).loc main_arg6))))
        (co2 (m ((c : Thread nD τ).loc main_arg7))) (co1 (m ((c : Thread nD τ).loc main_arg8))) (co2 (m ((c : Thread nD τ).loc main_arg9))) (co1 (m ((c : Thread nD τ).loc main_arg10)))) := by
  refine (W4_arr m ρ c 9).trans ((h1 (V3 m ρ) c).trans ?_)
  rw [V3_v12 m ρ c h0, V3_arg2, V3_arg5, V3_v15, V3_v13, V3_v14, V3_v16, V3_arg9, V3_v17,
    row_of_vector, row_of_vector, row_of_vector, lower_rows, upper_rows]
  rfl

/-- The target indices, computed before the message kernel and not touched by it. -/
theorem W4_v5 : W4 m ρ c (Proc.devRef .tc main_v5)
    = shapeCast S800000 (extractStridedSlice S1x800000 ![1, 0] (m ((c : Thread nD τ).loc main_arg1)) slices_S2x800000_S1x800000_1_0) shapeCasts_S1x800000_S800000 := by
  refine (W4_of_ne m ρ c main_v5 (by decide)).trans ?_
  rw [← W2_arg1 m ρ c]
  show StableHlo.after hostOps1 (W2 m ρ c) (Proc.devRef .tc main_v5) = _
  after_results
  try rfl

theorem W4_arg11 : W4 m ρ c (Proc.devRef .tc main_arg11) = m ((c : Thread nD τ).loc main_arg11) := by
  refine Eq.trans (?_ : _ = W5 m ρ c (Proc.devRef .tc main_arg11)) ((W6_of_ne m ρ c main_arg11 (by decide)).symm.trans (W6_main_arg11 m ρ c))
  symm
  untouched_by hostOps2
theorem W4_arg12 : W4 m ρ c (Proc.devRef .tc main_arg12) = m ((c : Thread nD τ).loc main_arg12) := by
  refine Eq.trans (?_ : _ = W5 m ρ c (Proc.devRef .tc main_arg12)) ((W6_of_ne m ρ c main_arg12 (by decide)).symm.trans (W6_main_arg12 m ρ c))
  symm
  untouched_by hostOps2
theorem W4_arg14 : W4 m ρ c (Proc.devRef .tc main_arg14) = m ((c : Thread nD τ).loc main_arg14) := by
  refine Eq.trans (?_ : _ = W5 m ρ c (Proc.devRef .tc main_arg14)) ((W6_of_ne m ρ c main_arg14 (by decide)).symm.trans (W6_main_arg14 m ρ c))
  symm
  untouched_by hostOps2

/-! ## At the update kernel's entry -/

theorem V5_arg0 : V5 m ρ c main_arg0 = m ((c : Thread nD τ).loc main_arg0) :=
  (((W6_arr m ρ c 0).trans (((dat2 (V5 m ρ) c).arrAt_in 0 rfl _).trans (A_eq2 (V5 m ρ) c 0))).symm).trans (W6_main_arg0 m ρ c)
theorem V5_arg13 : V5 m ρ c main_arg13 = m ((c : Thread nD τ).loc main_arg13) :=
  (((W6_arr m ρ c 5).trans (((dat2 (V5 m ρ) c).arrAt_in 5 rfl _).trans (A_eq2 (V5 m ρ) c 5))).symm).trans (W6_main_arg13 m ρ c)
theorem V5_v22 : V5 m ρ c main_v22 = extractStridedSlice S128x128 ![0, 0] (m ((c : Thread nD τ).loc main_arg11)) slices_S256x128_S128x128_0_0 := by
  rw [← W4_arg11 m ρ c]
  show StableHlo.after hostOps2 (W4 m ρ c) (Proc.devRef .tc main_v22) = _
  after_results
  try rfl
theorem V5_v23 : V5 m ρ c main_v23 = extractStridedSlice S128x128 ![128, 0] (m ((c : Thread nD τ).loc main_arg11)) slices_S256x128_S128x128_128_0 := by
  rw [← W4_arg11 m ρ c]
  show StableHlo.after hostOps2 (W4 m ρ c) (Proc.devRef .tc main_v23) = _
  after_results
  try rfl
theorem V5_v24 : V5 m ρ c main_v24 = shapeCast S1x128 (m ((c : Thread nD τ).loc main_arg12)) shapeCasts_S128_S1x128 := by
  rw [← W4_arg12 m ρ c]
  show StableHlo.after hostOps2 (W4 m ρ c) (Proc.devRef .tc main_v24) = _
  after_results
  try rfl
theorem V5_v25 : V5 m ρ c main_v25 = shapeCast S1x128 (m ((c : Thread nD τ).loc main_arg14)) shapeCasts_S128_S1x128 := by
  rw [← W4_arg14 m ρ c]
  show StableHlo.after hostOps2 (W4 m ρ c) (Proc.devRef .tc main_v25) = _
  after_results
  try rfl
/-- The aggregated messages: each node's row is the sum of the messages of the edges that target it. -/
theorem V5_v21 : V5 m ρ c main_v21
    = Host.scatterAdd (F := Ideal) (φ := .f32) scatter_S50000x128_S800000x1_S800000x128_1_0_0_1 zeros
        (broadcastInDim S800000x1 ![0] bcast_S800000_S800000x1_0 (W4 m ρ c (Proc.devRef .tc main_v5)))
        (W4 m ρ c (Proc.devRef .tc main_v18)) := by
  show StableHlo.after hostOps2 (W4 m ρ c) (Proc.devRef .tc main_v21) = _
  after_results
  try rfl

/-! ## The result -/

/-- The program's result buffer after the run is the layer of the specification at the launch contents of the
    arguments, over the program's own gather (at the source indices) and sum at the targets (from zeros). -/
theorem result_eq (h0 : NodeFact) (h1 : MessageFact) (h2 : UpdateFact) :
    W6 m ρ c (Proc.devRef .tc main_v26)
      = ar2 (layer
          (fun h => Host.gather (α := EReal) gather_S50000x128_S800000x1_S800000x128_1_0_n_n_0_1_1128 h (srcIdx (m ((c : Thread nD τ).loc main_arg1))))
          (fun u => Host.scatterAdd (F := Ideal) (φ := .f32) scatter_S50000x128_S800000x1_S800000x128_1_0_0_1 zeros (dstIdx (m ((c : Thread nD τ).loc main_arg1))) u)
          (co2 (m ((c : Thread nD τ).loc main_arg0))) (co2 (m ((c : Thread nD τ).loc main_arg2))) (co2 (m ((c : Thread nD τ).loc main_arg3))) (co1 (m ((c : Thread nD τ).loc main_arg4))) (co2 (m ((c : Thread nD τ).loc main_arg5))) (co1 (m ((c : Thread nD τ).loc main_arg6)))
          (co2 (m ((c : Thread nD τ).loc main_arg7))) (co1 (m ((c : Thread nD τ).loc main_arg8))) (co2 (m ((c : Thread nD τ).loc main_arg9))) (co1 (m ((c : Thread nD τ).loc main_arg10)))
          (co2 (m ((c : Thread nD τ).loc main_arg11))) (co1 (m ((c : Thread nD τ).loc main_arg12))) (co2 (m ((c : Thread nD τ).loc main_arg13))) (co1 (m ((c : Thread nD τ).loc main_arg14)))) := by
  refine (W6_arr m ρ c 7).trans ((h2 (V5 m ρ) c).trans ?_)
  rw [V5_arg0, V5_v21, V5_v22, V5_v23, V5_v24, V5_arg13, V5_v25, W4_v5, W4_v18 m ρ c h0 h1,
    row_of_vector, row_of_vector, lower_rows, upper_rows]
  rfl

end Cert.KernelIdeal.Layer

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.NodeStates.lean ====
/-
  What the first kernel leaves in its output array: the affine stage applied to the node features.

  The kernel walks the 50000 rows of the node features in 25 blocks of 2000 rows. At each block it multiplies the
  block by the whole 128 × 128 weight matrix into a zero accumulator, adds the 1 × 128 bias row spread down the
  block, and stores the sum as the output's block of the same rows. Over the extended reals a change of float format
  is the identity, so at row p of the block and column q the stored value is (∑ κ, x p κ · w κ q) + β q. Block t of
  the features is rows 2000·t … 2000·t + 1999 of the feature array, the weight and bias blocks are their whole
  arrays at every point, and block t of the output is the same rows of the output array: what point t writes back
  is therefore block t of ONE function of the three arrays, the specification's affine stage `lin`. Row r lies in
  block r / 2000, so the blocks cover the output array, and the array ends holding that function.
-/
import proofs.«180056_j19078244729007_1_alg».proof.Proof.Gen.KernelIdeal.Frame
import proofs.«180056_j19078244729007_1_alg».proof.Proof.Spec
import proofs.«180056_j19078244729007_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Idealize.ShloMosaic Idealize.ShloMosaic.TcCoe Idealize.SL.Sem Idealize.ShloMosaic.ValueIdx
open Cert.KernelIdeal Cert.GraphLayer
open scoped BigOperators

variable (V : (c : Dev nD) → (b : Ref sig .tc) → Buf (Elt Ideal) ((c : Thread nD τ).loc b)) (c : Dev nD)

namespace NodeStates

/-- Both offsets of a whole-buffer access are zero. -/
theorem zero_offsets : (![0, 0] : Fin 2 → Nat) = fun _ => 0 := funext fun a => by fin_cases a <;> rfl

/-- The stored block at row p, column q: the product into the zero accumulator is the sum over the shared axis, the
    bias row spread down the block reads its entry in column q, and the two are added; the format changes and the
    cast to the same shape do nothing. -/
theorem linear_block_apply (x0 : Vec Ideal S2000x128 .f32) (x1 : Vec Ideal S128x128 .f32) (x2 : Vec Ideal S1x128 .f32)
    (p : Fin 2000) (q : Fin 128) :
    Gen.k0_pay1 x0 x1 x2 (ix2 p q) = (∑ κ : Fin 128, x0 (ix2 p κ) * x1 (ix2 κ q)) + x2 (ix2 (0 : Fin 1) q) := by
  unfold Gen.k0_pay1
  refine (addf_apply _ _ _).trans ?_
  refine congrArg₂ (· + ·) ?_ ?_
  · exact Cert.LibPlainMatmul.matmul_zero_plain _ _ _ p q
  · refine (broadcastTo_1b_ab_apply _ _ p q).trans ?_
    rw [shapeCast_self]

/-- The block indices at grid point t: the feature and output windows are at row block t, column block 0; the weight
    and bias windows stay at block (0, 0). Decided over the 25 points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- If the first block is rows r … r + 1999 of an array A0 and the other two blocks are whole arrays A1, A2, the
    stored block at index j is the affine stage of the three arrays at the array index i with row r + (row of j)
    and the column of j. -/
theorem block_of_rows (x0 : Vec Ideal S2000x128 .f32) (x1 : Vec Ideal S128x128 .f32) (x2 : Vec Ideal S1x128 .f32)
    (A0 : Arr2 50000 128) (A1 : Arr2 128 128) (A2 : Arr2 1 128) (r : ℕ) (hr : r + 2000 ≤ 50000)
    (h0 : ∀ (p : Fin 2000) (κ : Fin 128), x0 (ix2 p κ) = A0 (ix2 (⟨r + p.val, by omega⟩ : Fin 50000) κ))
    (h1 : x1 = A1) (h2 : x2 = A2)
    (j : S2000x128.Idx) (i : S50000x128.Idx) (hi0 : (i 0).val = r + (j 0).val) (hi1 : (i 1).val = (j 1).val) :
    Gen.k0_pay1 x0 x1 x2 j = ar2 (lin (co2 A0) (co2 A1) (row A2)) i := by
  obtain ⟨p, q, rfl⟩ : ∃ (p : Fin 2000) (q : Fin 128), j = ix2 p q := ⟨j 0, j 1, eq_ix2 j⟩
  have hi : i = ix2 (⟨r + p.val, by omega⟩ : Fin 50000) q :=
    funext fun a => Fin.ext (by
      match a with
      | ⟨0, _⟩ => exact hi0
      | ⟨1, _⟩ => exact hi1)
  subst h1 h2
  rw [hi, linear_block_apply, ar2_ix2]
  unfold lin co2 row
  refine congrArg₂ (· + ·) (Finset.sum_congr rfl fun κ _ => ?_) rfl
  rw [h0]

/-- An index of the output array is in point t's block iff each coordinate is in the block's range on its axis. -/
theorem mem_block (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- The output's blocks cover its array: row r is in the block of point r / 2000. -/
theorem covered (i : S50000x128.Idx) :
    ∃ t : Fin cfg0.N, (cfg0.win 3).flush t = true ∧ i ∈ ((cfg0.win 3).blk t).view.set := by
  have hN : cfg0.N = 25 := Gen.N_0
  have h0 : (i 0).val < 50000 := (i 0).isLt
  have h1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, e30, e31⟩ := index_facts t
  refine ⟨t, Gen.flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-- What point t writes back is block t of the affine stage of the three arrays the region found at entry: each
    input block is read where the output block's rows say, a block's coordinate being index × size + 1 × the
    coordinate inside the block. -/
theorem flushed_eq (t : Fin cfg0.N) :
    (Gen.dat0 (F := Ideal) V c).flushed 3 t
      = ((cfg0.win 3).blk t).view.read (Elt Ideal)
          (ar2 (lin (co2 (V c main_arg0)) (co2 (V c main_arg3)) (row (V c main_v0))) : Arr2 50000 128) := by
  show (cfg0.win 3).cut (grid0.coords t) ((Gen.dat0 V c).after 3 t) = _
  rw [Gen.after0_3]
  unfold Gen.out0_3
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31⟩ := index_facts t
  have hN : cfg0.N = 25 := Gen.N_0
  have ht : t.val < cfg0.N := t.isLt
  funext j
  show Gen.k0_pay1 (Gen.iblk0 V c 0 t) (Gen.iblk0 V c 1 t) (Gen.iblk0 V c 2 t) j
      = (ar2 (lin (co2 (V c main_arg0)) (co2 (V c main_arg3)) (row (V c main_v0))) : Arr2 50000 128)
          (((cfg0.win 3).blk t).view.emb j)
  refine block_of_rows _ _ _ (V c main_arg0) (V c main_arg3) (V c main_v0) (t.val * 2000) (by omega) ?_ ?_ ?_ j _ ?_ ?_
  · intro p κ
    show V c main_arg0 (((cfg0.win 0).blk t).view.emb (ix2 p κ)) = _
    refine congrArg (V c main_arg0) (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * κ.val = κ.val; rw [e01]; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; rw [e10]; omega
    | ⟨1, _⟩ => show win0_1.index t (1 : Fin 2) * 128 + 1 * (y 1).val = (y 1).val; rw [e11]; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; rw [e20]; omega
    | ⟨1, _⟩ => show win0_2.index t (1 : Fin 2) * 128 + 1 * (y 1).val = (y 1).val; rw [e21]; omega
  · show win0_3.index t (0 : Fin 2) * 2000 + 1 * (j 0).val = t.val * 2000 + (j 0).val; rw [e30]; omega
  · show win0_3.index t (1 : Fin 2) * 128 + 1 * (j 1).val = (j 1).val; rw [e31]; omega

end NodeStates

/-- The output array after the run is the affine stage of the node features, the weight matrix and the bias row. -/
theorem node_states :
    ((Gen.dat0 (F := Ideal) V c).arrAt 3 cfg0.N : Arr2 50000 128)
      = ar2 (lin (co2 (V c main_arg0)) (co2 (V c main_arg3)) (row (V c main_v0))) :=
  (Gen.dat0 (F := Ideal) V c).arrAt_eq_of_cover 3 _ (fun t _ => NodeStates.flushed_eq V c t) NodeStates.covered

end Cert.KernelIdeal.Layer

end
-- ==== Proof.Messages.lean ====
/-
  What the second kernel leaves in its output array: the messages, one row per edge.

  The kernel walks the 800000 edge rows in 160 blocks of 5000 rows. At each block it forms the block's edge states —
  the block of edge features times the 64 × 128 edge weight matrix into a zero accumulator, plus the 1 × 128 bias row
  spread down the block —, multiplies the block of gathered node states by one 128 × 128 matrix and the edge states
  by another, adds the two products and a bias row, clips the sum below at zero, multiplies the result by a third
  128 × 128 matrix and adds a last bias row; the result is stored as the output's block of the same rows. Over the
  extended reals a change of float format is the identity and a product into the zero accumulator read at (p, q) is
  the sum over the shared axis, so at row p of the block and column q the stored value is the specification's
  two-input perceptron `mlp2` of the block of states and of the affine stage `lin` of the block of features. Both
  stages at a row use that row of their inputs only. Block t of the states, of the features and of the output is
  rows 5000·t … 5000·t + 4999 of its array, and the seven weight and bias blocks are their whole arrays at every
  point: what point t writes back is therefore block t of ONE function of the nine arrays. Row r lies in block
  r / 5000, so the blocks cover the output array, and the array ends holding that function.
-/
import proofs.«180056_j19078244729007_1_alg».proof.Proof.Gen.KernelIdeal.Frame
import proofs.«180056_j19078244729007_1_alg».proof.Proof.Spec
import proofs.«180056_j19078244729007_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Idealize.ShloMosaic Idealize.ShloMosaic.TcCoe Idealize.SL.Sem Idealize.ShloMosaic.ValueIdx
open Cert.KernelIdeal Cert.GraphLayer
open scoped BigOperators

variable (V : (c : Dev nD) → (b : Ref sig .tc) → Buf (Elt Ideal) ((c : Thread nD τ).loc b)) (c : Dev nD)

namespace Msg

/-- Both offsets of a whole-buffer access are zero. -/
theorem zero_offsets : (![0, 0] : Fin 2 → Nat) = fun _ => 0 := funext fun a => by fin_cases a <;> rfl

/-- A bias row spread down a block reads, at (p, q), the row's entry q; the cast to the same shape does nothing. -/
theorem bias_apply {a : ℕ} (b : Vec Ideal S1x128 .f32) (h1 : S1x128.ShapeCasts S1x128)
    (h2 : S1x128.Broadcasts ⟨2, ![a, 128]⟩) (p : Fin a) (q : Fin 128) :
    broadcastTo ⟨2, ![a, 128]⟩ (shapeCast S1x128 b h1) h2 (ix2 p q) = row b q := by
  refine (broadcastTo_1b_ab_apply _ h2 p q).trans ?_
  rw [shapeCast_self]
  rfl

/-- The block's payload read at (p, q): the affine stage on the edge block, the two products with the two halves of
    the first-layer weights and the bias clipped below at zero, and the second affine stage, each product into the
    zero accumulator being the sum over the shared axis. -/
theorem payload_apply (x0 : Vec Ideal S5000x128 .f32) (x1 : Vec Ideal S5000x64 .f32) (x2 : Vec Ideal S64x128 .f32)
    (x3 : Vec Ideal S1x128 .f32) (x4 x5 : Vec Ideal S128x128 .f32) (x6 : Vec Ideal S1x128 .f32)
    (x7 : Vec Ideal S128x128 .f32) (x8 : Vec Ideal S1x128 .f32) (p : Fin 5000) (q : Fin 128) :
    Gen.k1_pay1 x0 x1 x2 x3 x4 x5 x6 x7 x8 (ix2 p q)
      = mlp2 (co2 x0) (lin (co2 x1) (co2 x2) (row x3)) (co2 x4) (co2 x5) (row x6) (co2 x7) (row x8) p q := by
  unfold Gen.k1_pay1
  refine (addf_apply _ _ _).trans ?_
  refine congrArg₂ (· + ·) ?_ (bias_apply x8 _ _ p q)
  refine (Cert.LibPlainMatmul.matmul_zero_plain _ _ _ p q).trans ?_
  refine Finset.sum_congr rfl fun κ _ => ?_
  refine congrArg₂ (· * ·) ?_ rfl
  refine (truncf_apply (ψ := .bf16) _ Gen.bitsLt_bf16_f32 _).trans ?_
  refine (maximumf_apply _ _ _).trans ?_
  unfold hid2
  refine congrArg₂ max ?_ Ideal.ofBits_zero_f32
  refine (addf_apply _ _ _).trans ?_
  refine congrArg₂ (· + ·) ?_ (bias_apply x6 _ _ p κ)
  refine (addf_apply _ _ _).trans ?_
  refine congrArg₂ (· + ·) ?_ ?_
  · refine (Cert.LibPlainMatmul.matmul_zero_plain _ _ _ p κ).trans ?_
    refine Finset.sum_congr rfl fun ι _ => ?_
    exact congrArg₂ (· * ·) (congrFun (shapeCast_self x0 _) _) (congrFun (shapeCast_self x4 _) _)
  · refine (Cert.LibPlainMatmul.matmul_zero_plain _ _ _ p κ).trans ?_
    refine Finset.sum_congr rfl fun ι _ => ?_
    refine congrArg₂ (· * ·) ?_ (congrFun (shapeCast_self x5 _) _)
    refine (truncf_apply (ψ := .bf16) _ Gen.bitsLt_bf16_f32 _).trans ?_
    refine (addf_apply _ _ _).trans ?_
    unfold lin
    refine congrArg₂ (· + ·) ?_ (bias_apply x3 _ _ p ι)
    exact Cert.LibPlainMatmul.matmul_zero_plain _ _ _ p ι

/-- The affine stage at a row depends on that row of its input only. -/
theorem lin_row {n n' k w : ℕ} (x : Fin n → Fin k → EReal) (x' : Fin n' → Fin k → EReal) (W : Fin k → Fin w → EReal)
    (β : Fin w → EReal) (p : Fin n) (p' : Fin n') (h : x p = x' p') : lin x W β p = lin x' W β p' := by
  funext q
  unfold lin
  rw [h]

/-- The perceptron at a row depends on that row of each of its two inputs only. -/
theorem mlp2_row {n n' : ℕ} (x y : Fin n → Fin 128 → EReal) (x' y' : Fin n' → Fin 128 → EReal)
    (wa wb : Fin 128 → Fin 128 → EReal) (β₁ : Fin 128 → EReal) (w₂ : Fin 128 → Fin 128 → EReal) (β₂ : Fin 128 → EReal)
    (p : Fin n) (p' : Fin n') (hx : x p = x' p') (hy : y p = y' p') :
    mlp2 x y wa wb β₁ w₂ β₂ p = mlp2 x' y' wa wb β₁ w₂ β₂ p' := by
  funext q
  unfold mlp2 lin hid2
  rw [hx, hy]

/-- The index maps, decided once over the 160 grid points: the three row-blocked windows sit at block (t, 0), the
    weight and bias windows at block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- If the first two blocks are rows r … r + 4999 of arrays A0 and A1 and the other seven blocks are whole arrays,
    the stored block at index j is the perceptron of the arrays at the array index i with row r + (row of j) and the
    column of j. -/
theorem block_of_rows (x0 : Vec Ideal S5000x128 .f32) (x1 : Vec Ideal S5000x64 .f32) (x2 : Vec Ideal S64x128 .f32)
    (x3 : Vec Ideal S1x128 .f32) (x4 x5 : Vec Ideal S128x128 .f32) (x6 : Vec Ideal S1x128 .f32)
    (x7 : Vec Ideal S128x128 .f32) (x8 : Vec Ideal S1x128 .f32)
    (A0 : Arr2 800000 128) (A1 : Arr2 800000 64) (A2 : Arr2 64 128) (A3 : Arr2 1 128) (A4 A5 : Arr2 128 128)
    (A6 : Arr2 1 128) (A7 : Arr2 128 128) (A8 : Arr2 1 128) (r : ℕ) (hr : r + 5000 ≤ 800000)
    (h0 : ∀ (p : Fin 5000) (κ : Fin 128), x0 (ix2 p κ) = A0 (ix2 (⟨r + p.val, by omega⟩ : Fin 800000) κ))
    (h1 : ∀ (p : Fin 5000) (κ : Fin 64), x1 (ix2 p κ) = A1 (ix2 (⟨r + p.val, by omega⟩ : Fin 800000) κ))
    (h2 : x2 = A2) (h3 : x3 = A3) (h4 : x4 = A4) (h5 : x5 = A5) (h6 : x6 = A6) (h7 : x7 = A7) (h8 : x8 = A8)
    (j : S5000x128.Idx) (i : S800000x128.Idx) (hi0 : (i 0).val = r + (j 0).val) (hi1 : (i 1).val = (j 1).val) :
    Gen.k1_pay1 x0 x1 x2 x3 x4 x5 x6 x7 x8 j
      = ar2 (mlp2 (co2 A0) (lin (co2 A1) (co2 A2) (row A3)) (co2 A4) (co2 A5) (row A6) (co2 A7) (row A8)) i := by
  obtain ⟨p, q, rfl⟩ : ∃ (p : Fin 5000) (q : Fin 128), j = ix2 p q := ⟨j 0, j 1, eq_ix2 j⟩
  have hi : i = ix2 (⟨r + p.val, by omega⟩ : Fin 800000) q :=
    funext fun a => Fin.ext (by
      match a with
      | ⟨0, _⟩ => exact hi0
      | ⟨1, _⟩ => exact hi1)
  subst h2 h3 h4 h5 h6 h7 h8
  rw [hi, payload_apply, ar2_ix2]
  refine congrFun (mlp2_row _ _ _ _ _ _ _ _ _ p _ (funext fun κ => h0 p κ) ?_) q
  exact lin_row _ _ _ _ p _ (funext fun κ => h1 p κ)

/-- An index of the output array is in point t's block iff each coordinate is in the block's range on its axis. -/
theorem mem_block (t : Fin cfg1.N) (i : S800000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v18).slice (win1_9.rect t)).set ↔ _
  rw [View.set_slice_whole, Rect.mem_set_unit]
  exact Iff.rfl

/-- The output's blocks cover its array: row r is in the block of point r / 5000. -/
theorem covered (i : S800000x128.Idx) :
    ∃ t : Fin cfg1.N, (cfg1.win 9).flush t = true ∧ i ∈ ((cfg1.win 9).blk t).view.set := by
  have hN : cfg1.N = 160 := Gen.N_1
  have h0 : (i 0).val < 800000 := (i 0).isLt
  have h1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, e90, e91⟩ := index_facts t
  refine ⟨t, Gen.flush1_9 t, ?_⟩
  rw [mem_block]
  intro a
  match a with
  | ⟨0, _⟩ =>
    show win1_9.index t (0 : Fin 2) * 5000 ≤ (i 0).val ∧ (i 0).val < win1_9.index t (0 : Fin 2) * 5000 + 5000
    rw [e90, ht]; omega
  | ⟨1, _⟩ =>
    show win1_9.index t (1 : Fin 2) * 128 ≤ (i 1).val ∧ (i 1).val < win1_9.index t (1 : Fin 2) * 128 + 128
    rw [e91]; omega

/-- What point t writes back is block t of the perceptron of the nine arrays the region found at entry: each input
    block is read where the output block's rows say, a block's coordinate being index × size + 1 × the coordinate
    inside the block. -/
theorem flushed_eq (t : Fin cfg1.N) :
    (Gen.dat1 (F := Ideal) V c).flushed 9 t
      = ((cfg1.win 9).blk t).view.read (Elt Ideal)
          (ar2 (mlp2 (co2 (V c main_v12)) (lin (co2 (V c main_arg2)) (co2 (V c main_arg5)) (row (V c main_v15)))
            (co2 (V c main_v13)) (co2 (V c main_v14)) (row (V c main_v16)) (co2 (V c main_arg9)) (row (V c main_v17))) : Arr2 800000 128) := by
  show (cfg1.win 9).cut (grid1.coords t) ((Gen.dat1 V c).after 9 t) = _
  rw [Gen.after1_9]
  unfold Gen.out1_9
  rw [View.canon_unit_zero zero_offsets]
  simp only [View.ld_unit_zero (S := S5000x128) zero_offsets, View.ld_unit_zero (S := S5000x64) zero_offsets,
    View.ld_unit_zero (S := S64x128) zero_offsets, View.ld_unit_zero (S := S128x128) zero_offsets,
    View.ld_unit_zero (S := S1x128) zero_offsets]
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, e90, e91⟩ :=
    index_facts t
  have hN : cfg1.N = 160 := Gen.N_1
  have ht : t.val < cfg1.N := t.isLt
  funext j
  show Gen.k1_pay1 (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) (Gen.iblk1 V c 8 t) j
      = (ar2 (mlp2 (co2 (V c main_v12)) (lin (co2 (V c main_arg2)) (co2 (V c main_arg5)) (row (V c main_v15)))
            (co2 (V c main_v13)) (co2 (V c main_v14)) (row (V c main_v16)) (co2 (V c main_arg9)) (row (V c main_v17))) : Arr2 800000 128)
          (((cfg1.win 9).blk t).view.emb j)
  refine block_of_rows _ _ _ _ _ _ _ _ _ (V c main_v12) (V c main_arg2) (V c main_arg5) (V c main_v15) (V c main_v13)
    (V c main_v14) (V c main_v16) (V c main_arg9) (V c main_v17) (t.val * 5000) (by omega) ?_ ?_ ?_ ?_ ?_ ?_ ?_ ?_ ?_ j _ ?_ ?_
  · intro p κ
    show V c main_v12 (((cfg1.win 0).blk t).view.emb (ix2 p κ)) = _
    refine congrArg (V c main_v12) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * κ.val = κ.val; rw [e01]; omega
  · intro p κ
    show V c main_arg2 (((cfg1.win 1).blk t).view.emb (ix2 p κ)) = _
    refine congrArg (V c main_arg2) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 64 + 1 * κ.val = κ.val; rw [e11]; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; rw [e20]; omega
    | ⟨1, _⟩ => show win1_2.index t (1 : Fin 2) * 128 + 1 * (y 1).val = (y 1).val; rw [e21]; omega
  · funext y
    show V c main_v15 (((cfg1.win 3).blk t).view.emb y) = V c main_v15 y
    refine congrArg (V c main_v15) (funext fun a => Fin.ext ?_)
    match a with
    | ⟨0, _⟩ => show win1_3.index t (0 : Fin 2) * 1 + 1 * (y 0).val = (y 0).val; rw [e30]; omega
    | ⟨1, _⟩ => show win1_3.index t (1 : Fin 2) * 128 + 1 * (y 1).val = (y 1).val; rw [e31]; omega
  · funext y
    show V c main_v13 (((cfg1.win 4).blk t).view.emb y) = V c main_v13 y
    refine congrArg (V c main_v13) (funext fun a => Fin.ext ?_)
    match a with
    | ⟨0, _⟩ => show win1_4.index t (0 : Fin 2) * 128 + 1 * (y 0).val = (y 0).val; rw [e40]; omega
    | ⟨1, _⟩ => show win1_4.index t (1 : Fin 2) * 128 + 1 * (y 1).val = (y 1).val; rw [e41]; omega
  · funext y
    show V c main_v14 (((cfg1.win 5).blk t).view.emb y) = V c main_v14 y
    refine congrArg (V c main_v14) (funext fun a => Fin.ext ?_)
    match a with
    | ⟨0, _⟩ => show win1_5.index t (0 : Fin 2) * 128 + 1 * (y 0).val = (y 0).val; rw [e50]; omega
    | ⟨1, _⟩ => show win1_5.index t (1 : Fin 2) * 128 + 1 * (y 1).val = (y 1).val; rw [e51]; omega
  · funext y
    show V c main_v16 (((cfg1.win 6).blk t).view.emb y) = V c main_v16 y
    refine congrArg (V c main_v16) (funext fun a => Fin.ext ?_)
    match a with
    | ⟨0, _⟩ => show win1_6.index t (0 : Fin 2) * 1 + 1 * (y 0).val = (y 0).val; rw [e60]; omega
    | ⟨1, _⟩ => show win1_6.index t (1 : Fin 2) * 128 + 1 * (y 1).val = (y 1).val; rw [e61]; omega
  · funext y
    show V c main_arg9 (((cfg1.win 7).blk t).view.emb y) = V c main_arg9 y
    refine congrArg (V c main_arg9) (funext fun a => Fin.ext ?_)
    match a with
    | ⟨0, _⟩ => show win1_7.index t (0 : Fin 2) * 128 + 1 * (y 0).val = (y 0).val; rw [e70]; omega
    | ⟨1, _⟩ => show win1_7.index t (1 : Fin 2) * 128 + 1 * (y 1).val = (y 1).val; rw [e71]; omega
  · funext y
    show V c main_v17 (((cfg1.win 8).blk t).view.emb y) = V c main_v17 y
    refine congrArg (V c main_v17) (funext fun a => Fin.ext ?_)
    match a with
    | ⟨0, _⟩ => show win1_8.index t (0 : Fin 2) * 1 + 1 * (y 0).val = (y 0).val; rw [e80]; omega
    | ⟨1, _⟩ => show win1_8.index t (1 : Fin 2) * 128 + 1 * (y 1).val = (y 1).val; rw [e81]; omega
  · show win1_9.index t (0 : Fin 2) * 5000 + 1 * (j 0).val = t.val * 5000 + (j 0).val; rw [e90]; omega
  · show win1_9.index t (1 : Fin 2) * 128 + 1 * (j 1).val = (j 1).val; rw [e91]; omega

end Msg

/-- The output array after the run is the perceptron of the gathered node states and of the affine stage of the edge
    features, over the region's weight matrices and bias rows. -/
theorem messages :
    ((Gen.dat1 (F := Ideal) V c).arrAt 9 cfg1.N : Arr2 800000 128)
      = ar2 (mlp2 (co2 (V c main_v12)) (lin (co2 (V c main_arg2)) (co2 (V c main_arg5)) (row (V c main_v15)))
          (co2 (V c main_v13)) (co2 (V c main_v14)) (row (V c main_v16)) (co2 (V c main_arg9)) (row (V c main_v17))) :=
  (Gen.dat1 (F := Ideal) V c).arrAt_eq_of_cover 9 _ (fun t _ => Msg.flushed_eq V c t) Msg.covered

end Cert.KernelIdeal.Layer

end
-- ==== Proof.Update.lean ====
/-
  What the third kernel leaves in its output array: the two-input perceptron applied to the node features and the
  aggregated messages.

  The kernel walks the 50000 rows of its two row-blocked operands in 25 blocks of 2000 rows. At each block it
  multiplies the features' block by one 128 × 128 matrix and the messages' block by another, each product into a zero
  accumulator, adds the two products and a 1 × 128 bias row spread down the block, clips the sum below at zero, multiplies
  the clipped block by a third 128 × 128 matrix into a zero accumulator, adds a second bias row, and stores the result as
  the output's block of the same rows. Over the extended reals a change of float format is the identity, so at row p
  and column q the stored value is (∑ κ, max ((∑ ι, x p ι · a ι κ) + (∑ ι, y p ι · b ι κ) + β κ) 0 · w κ q) + γ q.
  Block t of either row-blocked operand is rows 2000·t … 2000·t + 1999 of its array, the five weight and bias blocks are
  their whole arrays at every point, and block t of the output is the same rows of the output array: what point t
  writes back is therefore block t of ONE function of the seven arrays, the specification's perceptron `mlp2`. Row r
  lies in block r / 2000, so the blocks cover the output array, and the array ends holding that function.
-/
import proofs.«180056_j19078244729007_1_alg».proof.Proof.Gen.KernelIdeal.Frame
import proofs.«180056_j19078244729007_1_alg».proof.Proof.Spec
import proofs.«180056_j19078244729007_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Idealize.ShloMosaic Idealize.ShloMosaic.TcCoe Idealize.SL.Sem Idealize.ShloMosaic.ValueIdx
open Cert.KernelIdeal Cert.GraphLayer
open scoped BigOperators

variable (V : (c : Dev nD) → (b : Ref sig .tc) → Buf (Elt Ideal) ((c : Thread nD τ).loc b)) (c : Dev nD)

namespace Update

/-- Both offsets of a whole-buffer access are zero. -/
theorem zero_offsets : (![0, 0] : Fin 2 → Nat) = fun _ => 0 := funext fun a => by fin_cases a <;> rfl

/-- The stored block at row p, column q: each product into the zero accumulator is the sum over its shared axis, a
    bias row spread down the block reads its entry in the column, the clip against the zero word is `max · 0`; the
    format changes and the casts to the same shape do nothing. -/
theorem perceptron_block_apply (x0 x1 : Vec Ideal S2000x128 .f32) (x2 x3 : Vec Ideal S128x128 .f32)
    (x4 : Vec Ideal S1x128 .f32) (x5 : Vec Ideal S128x128 .f32) (x6 : Vec Ideal S1x128 .f32)
    (p : Fin 2000) (q : Fin 128) :
    Gen.k2_pay1 x0 x1 x2 x3 x4 x5 x6 (ix2 p q)
      = (∑ κ : Fin 128, max (((∑ ι : Fin 128, x0 (ix2 p ι) * x2 (ix2 ι κ)) + ∑ ι : Fin 128, x1 (ix2 p ι) * x3 (ix2 ι κ))
            + x4 (ix2 (0 : Fin 1) κ)) 0 * x5 (ix2 κ q)) + x6 (ix2 (0 : Fin 1) q) := by
  unfold Gen.k2_pay1
  refine (addf_apply _ _ _).trans ?_
  refine congrArg₂ (· + ·) ?_ ?_
  · refine (Cert.LibPlainMatmul.matmul_zero_plain _ _ _ p q).trans ?_
    refine Finset.sum_congr rfl fun κ _ => ?_
    refine congrArg₂ (· * ·) ?_ rfl
    refine (maximumf_apply _ _ _).trans ?_
    refine congrArg₂ max ?_ Ideal.ofBits_zero_f32
    refine (addf_apply _ _ _).trans ?_
    refine congrArg₂ (· + ·) ?_ ?_
    · refine (addf_apply _ _ _).trans ?_
      refine congrArg₂ (· + ·) ?_ ?_
      · refine (Cert.LibPlainMatmul.matmul_zero_plain _ _ _ p κ).trans ?_
        refine Finset.sum_congr rfl fun ι _ => ?_
        refine congrArg₂ (· * ·) rfl ?_
        exact congrFun (shapeCast_self x2 _) (ix2 ι κ)
      · refine (Cert.LibPlainMatmul.matmul_zero_plain _ _ _ p κ).trans ?_
        refine Finset.sum_congr rfl fun ι _ => ?_
        refine congrArg₂ (· * ·) ?_ ?_
        · exact congrFun (shapeCast_self x1 _) (ix2 p ι)
        · exact congrFun (shapeCast_self x3 _) (ix2 ι κ)
    · refine (broadcastTo_1b_ab_apply _ _ p κ).trans ?_
      exact congrFun (shapeCast_self x4 _) (ix2 (0 : Fin 1) κ)
  · refine (broadcastTo_1b_ab_apply _ _ p q).trans ?_
    exact congrFun (shapeCast_self x6 _) (ix2 (0 : Fin 1) q)

/-- The block indices at grid point t: the two row-blocked windows and the output window are at row block t, column
    block 0; the five weight and bias windows stay at block (0, 0). Decided over the 25 points. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- If the two row blocks are rows r … r + 1999 of arrays A0, A1 and the other five blocks are whole arrays, the
    stored block at index j is the perceptron of the seven arrays at the array index i with row r + (row of j) and
    the column of j. -/
theorem block_of_rows (x0 x1 : Vec Ideal S2000x128 .f32) (x2 x3 : Vec Ideal S128x128 .f32)
    (x4 : Vec Ideal S1x128 .f32) (x5 : Vec Ideal S128x128 .f32) (x6 : Vec Ideal S1x128 .f32)
    (A0 A1 : Arr2 50000 128) (A2 A3 : Arr2 128 128) (A4 : Arr2 1 128) (A5 : Arr2 128 128) (A6 : Arr2 1 128)
    (r : ℕ) (hr : r + 2000 ≤ 50000)
    (h0 : ∀ (p : Fin 2000) (κ : Fin 128), x0 (ix2 p κ) = A0 (ix2 (⟨r + p.val, by omega⟩ : Fin 50000) κ))
    (h1 : ∀ (p : Fin 2000) (κ : Fin 128), x1 (ix2 p κ) = A1 (ix2 (⟨r + p.val, by omega⟩ : Fin 50000) κ))
    (h2 : x2 = A2) (h3 : x3 = A3) (h4 : x4 = A4) (h5 : x5 = A5) (h6 : x6 = A6)
    (j : S2000x128.Idx) (i : S50000x128.Idx) (hi0 : (i 0).val = r + (j 0).val) (hi1 : (i 1).val = (j 1).val) :
    Gen.k2_pay1 x0 x1 x2 x3 x4 x5 x6 j
      = ar2 (mlp2 (co2 A0) (co2 A1) (co2 A2) (co2 A3) (row A4) (co2 A5) (row A6)) i := by
  obtain ⟨p, q, rfl⟩ : ∃ (p : Fin 2000) (q : Fin 128), j = ix2 p q := ⟨j 0, j 1, eq_ix2 j⟩
  have hi : i = ix2 (⟨r + p.val, by omega⟩ : Fin 50000) q :=
    funext fun a => Fin.ext (by
      match a with
      | ⟨0, _⟩ => exact hi0
      | ⟨1, _⟩ => exact hi1)
  subst h2 h3 h4 h5 h6
  rw [hi, perceptron_block_apply, ar2_ix2]
  unfold mlp2 lin hid2 co2 row
  refine congrArg₂ (· + ·) (Finset.sum_congr rfl fun κ _ => ?_) rfl
  refine congrArg₂ (· * ·) (congrArg₂ max (congrArg₂ (· + ·) (congrArg₂ (· + ·) ?_ ?_) rfl) rfl) rfl
  · exact Finset.sum_congr rfl fun ι _ => by rw [h0]
  · exact Finset.sum_congr rfl fun ι _ => by rw [h1]

/-- An index of the output array is in point t's block iff each coordinate is in the block's range on its axis. -/
theorem mem_block (t : Fin cfg2.N) (i : S50000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v26).slice (win2_7.rect t)).set ↔ _
  rw [View.set_slice_whole, Rect.mem_set_unit]
  exact Iff.rfl

/-- The output's blocks cover its array: row r is in the block of point r / 2000. -/
theorem covered (i : S50000x128.Idx) :
    ∃ t : Fin cfg2.N, (cfg2.win 7).flush t = true ∧ i ∈ ((cfg2.win 7).blk t).view.set := by
  have hN : cfg2.N = 25 := Gen.N_2
  have h0 : (i 0).val < 50000 := (i 0).isLt
  have h1 : (i 1).val < 128 := (i 1).isLt
  obtain ⟨t, ht⟩ : ∃ t : Fin cfg2.N, t.val = (i 0).val / 2000 := ⟨⟨(i 0).val / 2000, by rw [hN]; omega⟩, rfl⟩
  obtain ⟨-, -, -, -, -, -, -, -, -, -, -, -, -, -, e70, e71⟩ := index_facts t
  refine ⟨t, Gen.flush2_7 t, ?_⟩
  rw [mem_block]
  intro a
  match a with
  | ⟨0, _⟩ =>
    show win2_7.index t (0 : Fin 2) * 2000 ≤ (i 0).val ∧ (i 0).val < win2_7.index t (0 : Fin 2) * 2000 + 2000
    rw [e70, ht]; omega
  | ⟨1, _⟩ =>
    show win2_7.index t (1 : Fin 2) * 128 ≤ (i 1).val ∧ (i 1).val < win2_7.index t (1 : Fin 2) * 128 + 128
    rw [e71]; omega

/-- What point t writes back is block t of the perceptron of the seven arrays the region found at entry: each input
    block is read where the output block's rows say, a block's coordinate being index × size + 1 × the coordinate
    inside the block. -/
theorem flushed_eq (t : Fin cfg2.N) :
    (Gen.dat2 (F := Ideal) V c).flushed 7 t
      = ((cfg2.win 7).blk t).view.read (Elt Ideal)
          (ar2 (mlp2 (co2 (V c main_arg0)) (co2 (V c main_v21)) (co2 (V c main_v22)) (co2 (V c main_v23))
            (row (V c main_v24)) (co2 (V c main_arg13)) (row (V c main_v25))) : Arr2 50000 128) := by
  show (cfg2.win 7).cut (grid2.coords t) ((Gen.dat2 V c).after 7 t) = _
  rw [Gen.after2_7]
  unfold Gen.out2_7
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31, e40, e41, e50, e51, e60, e61, e70, e71⟩ := index_facts t
  have hN : cfg2.N = 25 := Gen.N_2
  have ht : t.val < cfg2.N := t.isLt
  funext j
  show Gen.k2_pay1 (Gen.iblk2 V c 0 t) (Gen.iblk2 V c 1 t) (Gen.iblk2 V c 2 t) (Gen.iblk2 V c 3 t) (Gen.iblk2 V c 4 t)
        (Gen.iblk2 V c 5 t) (Gen.iblk2 V c 6 t) j
      = (ar2 (mlp2 (co2 (V c main_arg0)) (co2 (V c main_v21)) (co2 (V c main_v22)) (co2 (V c main_v23))
            (row (V c main_v24)) (co2 (V c main_arg13)) (row (V c main_v25))) : Arr2 50000 128)
          (((cfg2.win 7).blk t).view.emb j)
  refine block_of_rows _ _ _ _ _ _ _ (V c main_arg0) (V c main_v21) (V c main_v22) (V c main_v23) (V c main_v24)
    (V c main_arg13) (V c main_v25) (t.val * 2000) (by omega) ?_ ?_ ?_ ?_ ?_ ?_ ?_ j _ ?_ ?_
  · intro p κ
    show V c main_arg0 (((cfg2.win 0).blk t).view.emb (ix2 p κ)) = _
    refine congrArg (V c main_arg0) (funext fun a => Fin.ext ?_)
    match a with
    | ⟨0, _⟩ => show win2_0.index t (0 : Fin 2) * 2000 + 1 * p.val = t.val * 2000 + p.val; rw [e00]; omega
    | ⟨1, _⟩ => show win2_0.index t (1 : Fin 2) * 128 + 1 * κ.val = κ.val; rw [e01]; omega
  · intro p κ
    show V c main_v21 (((cfg2.win 1).blk t).view.emb (ix2 p κ)) = _
    refine congrArg (V c main_v21) (funext fun a => Fin.ext ?_)
    match a with
    | ⟨0, _⟩ => show win2_1.index t (0 : Fin 2) * 2000 + 1 * p.val = t.val * 2000 + p.val; rw [e10]; omega
    | ⟨1, _⟩ => show win2_1.index t (1 : Fin 2) * 128 + 1 * κ.val = κ.val; rw [e11]; omega
  · funext y
    show V c main_v22 (((cfg2.win 2).blk t).view.emb y) = V c main_v22 y
    refine congrArg (V c main_v22) (funext fun a => Fin.ext ?_)
    match a with
    | ⟨0, _⟩ => show win2_2.index t (0 : Fin 2) * 128 + 1 * (y 0).val = (y 0).val; rw [e20]; omega
    | ⟨1, _⟩ => show win2_2.index t (1 : Fin 2) * 128 + 1 * (y 1).val = (y 1).val; rw [e21]; omega
  · funext y
    show V c main_v23 (((cfg2.win 3).blk t).view.emb y) = V c main_v23 y
    refine congrArg (V c main_v23) (funext fun a => Fin.ext ?_)
    match a with
    | ⟨0, _⟩ => show win2_3.index t (0 : Fin 2) * 128 + 1 * (y 0).val = (y 0).val; rw [e30]; omega
    | ⟨1, _⟩ => show win2_3.index t (1 : Fin 2) * 128 + 1 * (y 1).val = (y 1).val; rw [e31]; omega
  · funext y
    show V c main_v24 (((cfg2.win 4).blk t).view.emb y) = V c main_v24 y
    refine congrArg (V c main_v24) (funext fun a => Fin.ext ?_)
    match a with
    | ⟨0, _⟩ => show win2_4.index t (0 : Fin 2) * 1 + 1 * (y 0).val = (y 0).val; rw [e40]; omega
    | ⟨1, _⟩ => show win2_4.index t (1 : Fin 2) * 128 + 1 * (y 1).val = (y 1).val; rw [e41]; omega
  · funext y
    show V c main_arg13 (((cfg2.win 5).blk t).view.emb y) = V c main_arg13 y
    refine congrArg (V c main_arg13) (funext fun a => Fin.ext ?_)
    match a with
    | ⟨0, _⟩ => show win2_5.index t (0 : Fin 2) * 128 + 1 * (y 0).val = (y 0).val; rw [e50]; omega
    | ⟨1, _⟩ => show win2_5.index t (1 : Fin 2) * 128 + 1 * (y 1).val = (y 1).val; rw [e51]; omega
  · funext y
    show V c main_v25 (((cfg2.win 6).blk t).view.emb y) = V c main_v25 y
    refine congrArg (V c main_v25) (funext fun a => Fin.ext ?_)
    match a with
    | ⟨0, _⟩ => show win2_6.index t (0 : Fin 2) * 1 + 1 * (y 0).val = (y 0).val; rw [e60]; omega
    | ⟨1, _⟩ => show win2_6.index t (1 : Fin 2) * 128 + 1 * (y 1).val = (y 1).val; rw [e61]; omega
  · show win2_7.index t (0 : Fin 2) * 2000 + 1 * (j 0).val = t.val * 2000 + (j 0).val; rw [e70]; omega
  · show win2_7.index t (1 : Fin 2) * 128 + 1 * (j 1).val = (j 1).val; rw [e71]; omega

end Update

/-- The output array after the run is the perceptron of the node features, the aggregated messages, the two
    first-layer matrices, the first bias row, the second-layer matrix and the second bias row. -/
theorem update :
    ((Gen.dat2 (F := Ideal) V c).arrAt 7 cfg2.N : Arr2 50000 128)
      = ar2 (mlp2 (co2 (V c main_arg0)) (co2 (V c main_v21)) (co2 (V c main_v22)) (co2 (V c main_v23))
          (row (V c main_v24)) (co2 (V c main_arg13)) (row (V c main_v25))) :=
  (Gen.dat2 (F := Ideal) V c).arrAt_eq_of_cover 7 _ (fun t _ => Update.flushed_eq V c t) Update.covered

end Cert.KernelIdeal.Layer

end
-- ==== Proof.RefLayer.lean ====
/-
  The reference program computes the layer of the specification.

  Every dense stage of the reference is read at coordinates. A product of two arrays followed by the addition of a
  broadcast bias row is the affine stage: the product's entry (p, q) is the sum over κ of left (p, κ) · right (κ, q), and
  the broadcast bias read at (p, q) is the bias at q. A concatenation of two 128-column arrays along the columns, read at
  (p, k), is the joined row of the specification: the first array's entry for k < 128, the second's at k − 128 otherwise.
  So the product of the concatenation with a 256-row matrix, plus the bias, clipped below at zero (the maximum with a
  broadcast zero), is the perceptron's hidden row, by the law that a sum over 256 positions is the sum over its lower
  half plus the sum over its upper half. Two such perceptrons — one per edge on [gathered node state | edge state], one
  per node on [node features | aggregated messages] — and two affine stages make the layer. Gathering and summing at
  the targets are never opened: each is applied to arrays that are shown to be equal.
-/
import proofs.«180056_j19078244729007_1_alg».proof.Proof.Gen.ReferenceIdeal.Read
import proofs.«180056_j19078244729007_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layer
open Idealize.ShloMosaic Idealize.ShloMosaic.TcCoe Idealize.SL.Sem Idealize.ShloMosaic.ValueIdx
open Cert.ReferenceIdeal Cert.ReferenceIdeal.Read Cert.GraphLayer

/-- Two indices of rank 2 are equal when their coordinates are. -/
local macro "coords2" : tactic =>
  `(tactic| exact funext fun a => Fin.ext (by match a with | ⟨0, _⟩ => rfl | ⟨1, _⟩ => rfl))
/-- Two indices of rank 1 are equal when their coordinate is. -/
local macro "coords1" : tactic =>
  `(tactic| exact funext fun a => Fin.ext (by match a with | ⟨0, _⟩ => rfl))

/-! ## The two affine stages -/

/-! The contraction of a product at entry (p, q) pairs left (p, k) with right (k, q); a bias broadcast to all rows is
    read at its column. Each lemma below says this of one operation's index maps. -/

theorem lidx_v0 (p : Fin 50000) (q k : Fin 128) : lidx_main_v0 (ix2 p q) k = ix2 p k := by coords2
theorem ridx_v0 (p : Fin 50000) (q k : Fin 128) : ridx_main_v0 (ix2 p q) k = ix2 k q := by coords2
theorem bidx_v2 (p : Fin 50000) (q : Fin 128) : idx_main_v1 (idx_main_v2 (ix2 p q)) = ix1 q := by coords1

/-- The node states: the affine stage on the node features. -/
theorem node_states (x0 : Arr2 50000 128) (x3 : Arr2 128 128) (x4 : Arr1 128) :
    val_main_v3 (F := Ideal) x0 x3 x4 = ar2 (lin (co2 x0) (co2 x3) (co1 x4)) := by
  refine arr2_ext fun p q => ?_
  rw [val_main_v3_apply, val_main_v0_apply, val_main_v2_apply, val_main_v1_apply]
  simp only [lidx_v0, ridx_v0, bidx_v2, Ideal.addf_def]
  rfl

theorem lidx_v4 (p : Fin 800000) (q : Fin 128) (k : Fin 64) : lidx_main_v4 (ix2 p q) k = ix2 p k := by coords2
theorem ridx_v4 (p : Fin 800000) (q : Fin 128) (k : Fin 64) : ridx_main_v4 (ix2 p q) k = ix2 k q := by coords2
theorem bidx_v6 (p : Fin 800000) (q : Fin 128) : idx_main_v5 (idx_main_v6 (ix2 p q)) = ix1 q := by coords1

/-- The edge states: the affine stage on the edge features. -/
theorem edge_states (x2 : Arr2 800000 64) (x5 : Arr2 64 128) (x6 : Arr1 128) :
    val_main_v7 (F := Ideal) x2 x5 x6 = ar2 (lin (co2 x2) (co2 x5) (co1 x6)) := by
  refine arr2_ext fun p q => ?_
  rw [val_main_v7_apply, val_main_v4_apply, val_main_v6_apply, val_main_v5_apply]
  simp only [lidx_v4, ridx_v4, bidx_v6, Ideal.addf_def]
  rfl

/-! ## Joining two arrays along the columns -/

/-- A concatenation of two 128-column arrays along the columns, read at row `p` and column `k`, is the joined row:
    the first array's entry for `k < 128`, the second's at `k - 128` otherwise. -/
theorem concat_cols {n : ℕ} (A B : Arr2 n 128)
    (h : Shape.Concatenates [(⟨2, ![n, 128]⟩ : Shape), ⟨2, ![n, 128]⟩] ⟨2, ![n, 256]⟩ 1) (p : Fin n) (k : Fin 256) :
    concatenate (⟨2, ![n, 256]⟩ : Shape) 1 [⟨⟨2, ![n, 128]⟩, A⟩, ⟨⟨2, ![n, 128]⟩, B⟩] h (ix2 p k)
      = join (co2 A) (co2 B) p k := by
  unfold join
  by_cases hk : k.val < 128
  · rw [dif_pos hk]
    exact concatenate_pair_apply_left (1 : Fin 2) A B h (ix2 p k) rfl (ix2 p ⟨k.val, hk⟩)
      (fun b => by match b with | ⟨0, _⟩ => rfl | ⟨1, _⟩ => rfl)
  · rw [dif_neg hk]
    exact concatenate_pair_apply_right (1 : Fin 2) A B h (ix2 p k) rfl rfl (ix2 p ⟨k.val - 128, by omega⟩)
      (fun b hb => by match b with | ⟨0, _⟩ => rfl | ⟨1, _⟩ => exact absurd rfl hb)
      (by show (k.val - 128) + 128 = k.val; omega)

/-! ## The messages -/

theorem lidx_v20 (p : Fin 800000) (q : Fin 128) (k : Fin 256) : lidx_main_v20 (ix2 p q) k = ix2 p k := by coords2
theorem ridx_v20 (p : Fin 800000) (q : Fin 128) (k : Fin 256) : ridx_main_v20 (ix2 p q) k = ix2 k q := by coords2
theorem bidx_v22 (p : Fin 800000) (q : Fin 128) : idx_main_v21 (idx_main_v22 (ix2 p q)) = ix1 q := by coords1
theorem lidx_v25 (p : Fin 800000) (q k : Fin 128) : lidx_main_v25 (ix2 p q) k = ix2 p k := by coords2
theorem ridx_v25 (p : Fin 800000) (q k : Fin 128) : ridx_main_v25 (ix2 p q) k = ix2 k q := by coords2
theorem bidx_v27 (p : Fin 800000) (q : Fin 128) : idx_main_v26 (idx_main_v27 (ix2 p q)) = ix1 q := by coords1

/-- The perceptron's input row on an edge: the gathered node state joined with the edge state. -/
theorem msg_joined (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (p : Fin 800000) (k : Fin 256) :
    val_main_v19 (F := Ideal) x0 x1 x2 x3 x4 x5 x6 (ix2 p k) = join (co2 (val_main_v18 (F := Ideal) x0 x1 x3 x4)) (co2 (val_main_v7 (F := Ideal) x2 x5 x6)) p k :=
  concat_cols _ _ _ p k

/-- The messages' hidden row. -/
theorem msg_hidden (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (x7 : Arr2 256 128) (x8 : Arr1 128) (p : Fin 800000) (κ : Fin 128) :
    val_main_v24 (F := Ideal) x0 x1 x2 x3 x4 x5 x6 x7 x8 (ix2 p κ) = hid (co2 (val_main_v18 (F := Ideal) x0 x1 x3 x4)) (co2 (val_main_v7 (F := Ideal) x2 x5 x6)) (co2 x7) (co1 x8) p κ := by
  rw [val_main_v24_apply, val_main_v23_apply, val_main_v20_apply, val_main_v22_apply, val_main_v21_apply,
    val_main_call0_v0_apply, val_main_call0_cst_apply, ← hid_of_join]
  simp only [lidx_v20, ridx_v20, bidx_v22, msg_joined, Ideal.addf_def, Ideal.maximumf_def, Ideal.ofBits_def,
    Ideal.ofBits_zero_f32]
  rfl

/-- The messages: the perceptron on the gathered node states and the edge states. -/
theorem messages (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (x7 : Arr2 256 128) (x8 : Arr1 128)
    (x9 : Arr2 128 128) (x10 : Arr1 128) :
    val_main_v28 (F := Ideal) x0 x1 x2 x3 x4 x5 x6 x7 x8 x9 x10
      = ar2 (mlp (co2 (val_main_v18 (F := Ideal) x0 x1 x3 x4)) (co2 (val_main_v7 (F := Ideal) x2 x5 x6)) (co2 x7) (co1 x8) (co2 x9) (co1 x10)) := by
  refine arr2_ext fun p q => ?_
  rw [val_main_v28_apply, val_main_v25_apply, val_main_v27_apply, val_main_v26_apply]
  simp only [lidx_v25, ridx_v25, bidx_v27, msg_hidden, Ideal.addf_def]
  rfl

/-! ## The update -/

theorem lidx_v33 (p : Fin 50000) (q : Fin 128) (k : Fin 256) : lidx_main_v33 (ix2 p q) k = ix2 p k := by coords2
theorem ridx_v33 (p : Fin 50000) (q : Fin 128) (k : Fin 256) : ridx_main_v33 (ix2 p q) k = ix2 k q := by coords2
theorem bidx_v35 (p : Fin 50000) (q : Fin 128) : idx_main_v34 (idx_main_v35 (ix2 p q)) = ix1 q := by coords1
theorem lidx_v38 (p : Fin 50000) (q k : Fin 128) : lidx_main_v38 (ix2 p q) k = ix2 p k := by coords2
theorem ridx_v38 (p : Fin 50000) (q k : Fin 128) : ridx_main_v38 (ix2 p q) k = ix2 k q := by coords2
theorem bidx_v40 (p : Fin 50000) (q : Fin 128) : idx_main_v39 (idx_main_v40 (ix2 p q)) = ix1 q := by coords1

/-- The perceptron's input row on a node: the node's features joined with its aggregated messages. -/
theorem upd_joined (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (x7 : Arr2 256 128) (x8 : Arr1 128)
    (x9 : Arr2 128 128) (x10 : Arr1 128) (p : Fin 50000) (k : Fin 256) :
    val_main_v32 (F := Ideal) x0 x1 x2 x3 x4 x5 x6 x7 x8 x9 x10 (ix2 p k) = join (co2 x0) (co2 (val_main_v31 (F := Ideal) x0 x1 x2 x3 x4 x5 x6 x7 x8 x9 x10)) p k :=
  concat_cols _ _ _ p k

/-- The update's hidden row. -/
theorem upd_hidden (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (x7 : Arr2 256 128) (x8 : Arr1 128)
    (x9 : Arr2 128 128) (x10 : Arr1 128) (x11 : Arr2 256 128) (x12 : Arr1 128) (p : Fin 50000) (κ : Fin 128) :
    val_main_v37 (F := Ideal) x0 x1 x2 x3 x4 x5 x6 x7 x8 x9 x10 x11 x12 (ix2 p κ) = hid (co2 x0) (co2 (val_main_v31 (F := Ideal) x0 x1 x2 x3 x4 x5 x6 x7 x8 x9 x10)) (co2 x11) (co1 x12) p κ := by
  rw [val_main_v37_apply, val_main_v36_apply, val_main_v33_apply, val_main_v35_apply, val_main_v34_apply,
    val_main_call1_v0_apply, val_main_call1_cst_apply, ← hid_of_join]
  simp only [lidx_v33, ridx_v33, bidx_v35, upd_joined, Ideal.addf_def, Ideal.maximumf_def, Ideal.ofBits_def,
    Ideal.ofBits_zero_f32]
  rfl

/-- The update: the perceptron on the node features and the aggregated messages. -/
theorem update (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (x7 : Arr2 256 128) (x8 : Arr1 128)
    (x9 : Arr2 128 128) (x10 : Arr1 128) (x11 : Arr2 256 128) (x12 : Arr1 128) (x13 : Arr2 128 128) (x14 : Arr1 128) :
    val_main_v41 (F := Ideal) x0 x1 x2 x3 x4 x5 x6 x7 x8 x9 x10 x11 x12 x13 x14
      = ar2 (mlp (co2 x0) (co2 (val_main_v31 (F := Ideal) x0 x1 x2 x3 x4 x5 x6 x7 x8 x9 x10)) (co2 x11) (co1 x12) (co2 x13) (co1 x14)) := by
  refine arr2_ext fun p q => ?_
  rw [val_main_v41_apply, val_main_v38_apply, val_main_v40_apply, val_main_v39_apply]
  simp only [lidx_v38, ridx_v38, bidx_v40, upd_hidden, Ideal.addf_def]
  rfl

/-! ## The layer -/

theorem reference_layer (x0 : Arr2 50000 128) (x1 : (⟨S2x800000, .i32⟩ : BufTy).Contents (Elt Ideal)) (x2 : Arr2 800000 64)
    (x3 : Arr2 128 128) (x4 : Arr1 128) (x5 : Arr2 64 128) (x6 : Arr1 128) (x7 : Arr2 256 128) (x8 : Arr1 128)
    (x9 : Arr2 128 128) (x10 : Arr1 128) (x11 : Arr2 256 128) (x12 : Arr1 128) (x13 : Arr2 128 128) (x14 : Arr1 128) :
    val_main_v41 (F := Ideal) x0 x1 x2 x3 x4 x5 x6 x7 x8 x9 x10 x11 x12 x13 x14
      = ar2 (layer
          (fun h => Host.gather (α := EReal) gather_S50000x128_S800000x1_S800000x128_1_0_n_n_0_1_1128 h (val_main_v17 (F := Ideal) x1))
          (fun u => Host.scatterAdd (F := Ideal) (φ := .f32) scatter_S50000x128_S800000x1_S800000x128_1_0_0_1 (val_main_v29 (F := Ideal)) (val_main_v30 (F := Ideal) x1) u)
          (co2 x0) (co2 x2) (co2 x3) (co1 x4) (co2 x5) (co1 x6) (co2 x7) (co1 x8) (co2 x9) (co1 x10)
          (co2 x11) (co1 x12) (co2 x13) (co1 x14)) := by
  rw [update]
  unfold val_main_v31
  rw [messages]
  unfold val_main_v18
  rw [node_states, edge_states, co2_ar2]
  unfold layer
  rfl

end Cert.ReferenceIdeal.Layer

end
-- ==== Proof.lean ====
/-
  One round of message passing on a graph — node states by an affine map of the node features, edge states by an affine
  map of the edge features, a two-input perceptron per edge on the source node's state and the edge's state, the
  messages summed at each edge's target, and a two-input perceptron per node on its features and its summed messages —
  computed two ways that agree exactly over the extended reals.

  One program runs the dense stages as three gridded kernels over row blocks (2000 node rows, 5000 edge rows), with the
  gather of source states and the sum at the targets as host operations between them; inside a perceptron it multiplies
  the two inputs by the two halves of the stacked 256-row weight matrix separately and adds the products. The other
  program is a straight line of whole-array operations and joins the two inputs into one 256-column row before ONE
  product. At the ideal instance a change of float format is the identity and every sum is exact, so the only
  difference is that a sum over 256 positions is split into its lower and upper halves — true in any commutative
  additive monoid, infinite entries included: the precondition is never opened.

  Both results are shown to be the same function `Cert.GraphLayer.layer` of the arguments: the kernels' by reading each
  region's output array as a whole-array function of what the region found and walking every buffer back through the
  run to the launch contents; the straight-line program's by reading its operations at coordinates. The gather and the
  sum at the targets are the same operations on both sides, applied to equal arrays, and are never opened.
  The word-level program's idealization rewrote nothing, so that conjunct is trivial; the three frames are the runs with
  the result dropped.
-/
import proofs.«180056_j19078244729007_1_alg».proof.Defs
import proofs.«180056_j19078244729007_1_alg».proof.Proof.Gen.Kernel
import proofs.«180056_j19078244729007_1_alg».proof.Proof.Gen.Kernel.Skeleton
import proofs.«180056_j19078244729007_1_alg».proof.Proof.Gen.Kernel.Launch
import proofs.«180056_j19078244729007_1_alg».proof.Proof.Gen.Kernel.Points
import proofs.«180056_j19078244729007_1_alg».proof.Proof.Gen.Kernel.Frame
import proofs.«180056_j19078244729007_1_alg».proof.Proof.Gen.KernelIdeal
import proofs.«180056_j19078244729007_1_alg».proof.Proof.Gen.KernelIdeal.Skeleton
import proofs.«180056_j19078244729007_1_alg».proof.Proof.Gen.KernelIdeal.Launch
import proofs.«180056_j19078244729007_1_alg».proof.Proof.Gen.KernelIdeal.Points
import proofs.«180056_j19078244729007_1_alg».proof.Proof.Gen.KernelIdeal.Frame
import proofs.«180056_j19078244729007_1_alg».proof.Proof.Gen.ReferenceIdeal
import proofs.«180056_j19078244729007_1_alg».proof.Proof.Gen.Pre_finite_inputs
import proofs.«180056_j19078244729007_1_alg».proof.Proof.Gen.ReferenceIdeal.Run
import proofs.«180056_j19078244729007_1_alg».proof.Proof.Gen.ReferenceIdeal.Read
import proofs.«180056_j19078244729007_1_alg».proof.Proof.NamedRun
import proofs.«180056_j19078244729007_1_alg».proof.Proof.KernelLayer
import proofs.«180056_j19078244729007_1_alg».proof.Proof.NodeStates
import proofs.«180056_j19078244729007_1_alg».proof.Proof.Messages
import proofs.«180056_j19078244729007_1_alg».proof.Proof.Update
import proofs.«180056_j19078244729007_1_alg».proof.Proof.RefLayer
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel [hKernel : Cert.Kernel.Facts] [hPre_finite_inputs : Cert.Pre_finite_inputs.Facts] :
    Cert.frame_Kernel := fun m ρ _ => Cert.Kernel.Gen.frame m ρ

/-- The idealized program runs and leaves its arguments as launched. -/
theorem frame_kernel_ideal [hKernelIdeal : Cert.KernelIdeal.Facts] [hPre_finite_inputs : Cert.Pre_finite_inputs.Facts] :
    Cert.frame_KernelIdeal := fun m ρ _ => Cert.KernelIdeal.Gen.frame m ρ

/-- The straight-line program runs and leaves its arguments as launched: its run with the result dropped. -/
theorem frame_reference_ideal [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

/-- From launch memories that agree on the arguments both programs end with the layer of the specification at those
    arguments in their result buffers: the same extended reals, entry by entry. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.Gen.W6 m ρ c (Proc.devRef .tc Cert.KernelIdeal.main_v26),
    Cert.KernelIdeal.Layer.run_named (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W6 m ρ c (Proc.devRef .tc Cert.KernelIdeal.main_v26)
  rw [Cert.ReferenceIdeal.Read.val_main_v41_eq, Cert.ReferenceIdeal.Layer.reference_layer,
    Cert.KernelIdeal.Layer.result_eq m ρ c (fun V c => Cert.KernelIdeal.Layer.node_states V c)
      (fun V c => Cert.KernelIdeal.Layer.messages V c) (fun V c => Cert.KernelIdeal.Layer.update V c)]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    @frame_kernel _ _, @frame_kernel_ideal _ _, @frame_reference_ideal _ _, trivial, @algebraic _ _ _⟩

end Cert.Proof

end
